-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x8x8 : Shape := ⟨4, ![8, 16384, 8, 8]⟩
abbrev S_ : Shape := ⟨0, ![]⟩

class Facts : Prop where
  bcast_S_S8x16384x8x8 : S_.BroadcastsInDim S8x16384x8x8 (![] : Fin 0 → Fin S8x16384x8x8.rank)
  reducesTo_S8x16384x8x8_S_d0_1_2_3 : S8x16384x8x8.ReducesTo [0, 1, 2, 3] S_
  h_S_ : 0 < S_.numel

variable [Facts]

def fn {F : FTy → Type} [FloatOps F] (main_arg0 : FVec F S8x16384x8x8 .f32) (main_arg1 : FVec F S8x16384x8x8 .f32) : IVec S_ 1 :=
  let main_v0 : FVec F S8x16384x8x8 .f32 := Host.absf main_arg0
  let main_cst : FVec F S_ .f32 := constant S_ .f32 0x7F800000#32
  let main_v1 : FVec F S8x16384x8x8 .f32 := broadcastInDim S8x16384x8x8 ![] bcast_S_S8x16384x8x8 main_cst
  let main_v2 : IVec S8x16384x8x8 1 := cmpf .olt main_v0 main_v1
  let main_c : IVec S_ 1 := constantI S_ 1 1#1
  let main_v3 : IVec S_ 1 := (fun x v => Host.reduce IntOp.andi x v reducesTo_S8x16384x8x8_S_d0_1_2_3 h_S_) main_v2 main_c
  let main_v4 : FVec F S8x16384x8x8 .f32 := Host.absf main_arg1
  let main_cst_0 : FVec F S_ .f32 := constant S_ .f32 0x7F800000#32
  let main_v5 : FVec F S8x16384x8x8 .f32 := broadcastInDim S8x16384x8x8 ![] bcast_S_S8x16384x8x8 main_cst_0
  let main_v6 : IVec S8x16384x8x8 1 := cmpf .olt main_v4 main_v5
  let main_c_1 : IVec S_ 1 := constantI S_ 1 1#1
  let main_v7 : IVec S_ 1 := (fun x v => Host.reduce IntOp.andi x v reducesTo_S8x16384x8x8_S_d0_1_2_3 h_S_) main_v6 main_c_1
  let main_v8 : IVec S_ 1 := andi main_v3 main_v7
  main_v8
-- ==== Kernel.lean ====
abbrev S8x16384x8x8 : Shape := ⟨4, ![8, 16384, 8, 8]⟩
abbrev S131072x64 : Shape := ⟨2, ![131072, 64]⟩
abbrev S2x1x1 : Shape := ⟨3, ![2, 1, 1]⟩
abbrev S8192x64 : Shape := ⟨2, ![8192, 64]⟩
abbrev S1x1x1 : Shape := ⟨3, ![1, 1, 1]⟩
abbrev S1x1 : Shape := ⟨2, ![1, 1]⟩
abbrev S8192 : Shape := ⟨1, ![8192]⟩
abbrev S8192x1 : Shape := ⟨2, ![8192, 1]⟩
abbrev S1 : Shape := ⟨1, ![1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8x16384x8x8, .f32⟩
  | .hbm, ⟨1, _⟩ => ⟨S8x16384x8x8, .f32⟩
  | .hbm, ⟨2, _⟩ => ⟨S131072x64, .f32⟩
  | .hbm, ⟨3, _⟩ => ⟨S131072x64, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S8x16384x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S8x16384x8x8_S131072x64 : S8x16384x8x8.ShapeCasts S131072x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  reduces_S8192x64_S8192 : S8192x64.Reduces [1] S8192
  shapeCasts_S8192_S8192x1 : S8192.ShapeCasts S8192x1
  broadcasts_S8192x1_S8192x64 : S8192x1.Broadcasts S8192x64
  reduces_S8192x1_S1 : S8192x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S131072x64.size a
  hwx0_0 : ∀ i : grid0.Coords, EltTy.bits .f32 = 32 ∨ (Rect.block (s := S131072x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S131072x64.size a
  hwx0_1 : ∀ i : grid0.Coords, EltTy.bits .f32 = 32 ∨ (Rect.block (s := S131072x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x16384x8x8 : Shape := ⟨4, ![8, 16384, 8, 8]⟩
abbrev S_ : Shape := ⟨0, ![]⟩
abbrev S8x16384 : Shape := ⟨2, ![8, 16384]⟩
abbrev S8x16384x1x1 : Shape := ⟨4, ![8, 16384, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x16384x8x8, .f32⟩
  | .hbm, ⟨1, _⟩ => ⟨S8x16384x8x8, .f32⟩
  | .hbm, ⟨2, _⟩ => ⟨S_, .f32⟩
  | .hbm, ⟨3, _⟩ => ⟨S8x16384x8x8, .f32⟩
  | .hbm, ⟨4, _⟩ => ⟨S8x16384x8x8, .f32⟩
  | .hbm, ⟨5, _⟩ => ⟨S8x16384x8x8, .f32⟩
  | .hbm, ⟨6, _⟩ => ⟨S_, .f32⟩
  | .hbm, ⟨7, _⟩ => ⟨S8x16384x8x8, .f32⟩
  | .hbm, ⟨8, _⟩ => ⟨S8x16384x8x8, .f32⟩
  | .hbm, ⟨9, _⟩ => ⟨S8x16384x8x8, .f32⟩
  | .hbm, ⟨10, _⟩ => ⟨S_, .f32⟩
  | .hbm, ⟨11, _⟩ => ⟨S8x16384x8x8, .f32⟩
  | .hbm, ⟨12, _⟩ => ⟨S8x16384x8x8, .f32⟩
  | .hbm, ⟨13, _⟩ => ⟨S8x16384x8x8, .f32⟩
  | .hbm, ⟨14, _⟩ => ⟨S_, .f32⟩
  | .hbm, ⟨15, _⟩ => ⟨S8x16384x8x8, .f32⟩
  | .hbm, ⟨16, _⟩ => ⟨S8x16384x8x8, .f32⟩
  | .hbm, ⟨17, _⟩ => ⟨S8x16384x8x8, .f32⟩
  | .hbm, ⟨18, _⟩ => ⟨S8x16384x8x8, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S_, .f32⟩
  | .hbm, ⟨25, _⟩ => ⟨S8x16384, .f32⟩
  | .hbm, ⟨26, _⟩ => ⟨S8x16384, .f32⟩
  | .hbm, ⟨27, _⟩ => ⟨S8x16384x1x1, .f32⟩
  | .hbm, ⟨28, _⟩ => ⟨S8x16384x8x8, .f32⟩
  | .hbm, ⟨29, _⟩ => ⟨S8x16384x8x8, .f32⟩
  | .hbm, ⟨30, _⟩ => ⟨S8x16384x8x8, .f32⟩
  | .hbm, ⟨31, _⟩ => ⟨S8x16384x8x8, .f32⟩
  | .hbm, ⟨32, _⟩ => ⟨S_, .f32⟩
  | .hbm, ⟨33, _⟩ => ⟨S8x16384, .f32⟩
  | .hbm, ⟨34, _⟩ => ⟨S8x16384, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S8x16384x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S8x16384x8x8 : S_.BroadcastsInDim S8x16384x8x8 (![] : Fin 0 → Fin S8x16384x8x8.rank)
  reducesTo_S8x16384x8x8_S8x16384_d2_3 : S8x16384x8x8.ReducesTo [2, 3] S8x16384
  h_S_ : 0 < S_.numel
  bcast_S_S8x16384 : S_.BroadcastsInDim S8x16384 (![] : Fin 0 → Fin S8x16384.rank)
  bcast_S8x16384_S8x16384x1x1_0_1 : S8x16384.BroadcastsInDim S8x16384x1x1 (![0, 1] : Fin 2 → Fin S8x16384x1x1.rank)
  bcast_S8x16384x1x1_S8x16384x8x8_0_1_2_3 : S8x16384x1x1.BroadcastsInDim S8x16384x8x8 (![0, 1, 2, 3] : Fin 4 → Fin S8x16384x8x8.rank)
  reducesTo_S8x16384_S_d0_1 : S8x16384.ReducesTo [0, 1] S_

variable [Facts₀]

class Facts : Prop extends Facts₀ where

variable [Facts]
-- ==== Proof.LibBlockSum.lean ====
/-
  A sum over the first `J * B` natural numbers, taken block by block.
-/
import Mathlib.Algebra.BigOperators.Fin
import Mathlib.Data.Fintype.BigOperators
import Mathlib.Logic.Equiv.Fin.Basic

namespace Cert.Lib

/-- A sum over the first `J * B` naturals is the sum, over the `J` consecutive blocks of `B` naturals, of each
    block's own sum: `∑_{s < J} ∑_{l < B} f (B·s + l) = ∑_{k < J·B} f k`. It holds in any commutative additive monoid
    — only commutativity and associativity of `+` are used —, so also on the extended reals, where no cancellation or
    distributivity is available: the pairs `(s, l)` and the naturals `B·s + l` below `J·B` correspond one to one. -/
theorem sum_blocks {M : Type*} [AddCommMonoid M] (J B : ℕ) (f : ℕ → M) :
    ∑ s ∈ Finset.range J, ∑ l : Fin B, f (B * s + l.val) = ∑ k : Fin (J * B), f k.val := by
  rw [Finset.sum_range (fun s => ∑ l : Fin B, f (B * s + l.val))]
  rw [← Fintype.sum_prod_type' (fun (s : Fin J) (l : Fin B) => f (B * s.val + l.val))]
  refine Fintype.sum_equiv finProdFinEquiv _ _ (fun x => ?_)
  show f (B * x.1.val + x.2.val) = f (x.2.val + B * x.1.val)
  rw [Nat.add_comm]

end Cert.Lib
-- ==== Proof.Spec.lean ====
/-
  The mathematics both programs compute, stated once over the extended reals.

  An "area" is one row of 64 pixels. With the soft rounding s(x) = x − sin(2π·x)/2π, the weight of a pixel is
  w = s(s(mask)); a row's weighted mean is (Σ img·w)/(Σ w + ε), its deviation at a pixel (img·w − mean)·w, and its
  variance (Σ deviation²)/(Σ w + ε). The result is the sum of the 131072 row variances divided by 131072.

  Two ways of taking the outer sum occur: all rows at once; or in sixteen blocks of 8192 rows, the blocks of each
  half added one after another to a running sum that starts afresh at the first block of the half, the two halves
  then added. Both are the same sum: addition of extended reals is commutative and associative, and nothing else
  is used (no cancellation, no distributivity), so no finiteness is needed.
-/
import Idealize.ShloMosaic.PureOps.Ideal.Laws
import Idealize.ShloMosaic.Lib.ValueIdx
import proofs.«101651_j87960930222390_2_alg».proof.Proof.LibBlockSum

noncomputable section

open scoped BigOperators
open Idealize.ShloMosaic Idealize.ShloMosaic.ValueIdx

namespace Cert.AreaVar

/-- The binary32 word nearest 2π, as both programs write it. -/
abbrev twoPi : EReal := Ideal.ofBits .f32 0x40C90FDB#32
/-- The binary32 word nearest 1e-8. -/
abbrev eps : EReal := Ideal.ofBits .f32 0x322BCC77#32
/-- The word of 131072, the number of rows. -/
abbrev rows : EReal := Ideal.ofBits .f32 0x48000000#32

/-- The soft rounding x − sin(2π·x)/2π. -/
def soft (x : EReal) : EReal := x - Ideal.div (Ideal.sin (twoPi * x)) twoPi

/-- A pixel's weight: the mask value softly rounded twice. -/
def weight (mr : Fin 64 → EReal) (l : Fin 64) : EReal := soft (soft (mr l))

/-- A row's total weight, plus ε. -/
def wsum (mr : Fin 64 → EReal) : EReal := (∑ l, weight mr l) + eps

/-- A row's weighted mean. -/
def wmean (xr mr : Fin 64 → EReal) : EReal := Ideal.div (∑ l, xr l * weight mr l) (wsum mr)

/-- A pixel's weighted deviation from the row's mean. -/
def dev (xr mr : Fin 64 → EReal) (l : Fin 64) : EReal := (xr l * weight mr l - wmean xr mr) * weight mr l

/-- A row's variance. -/
def rowVar (xr mr : Fin 64 → EReal) : EReal := Ideal.div (∑ l, dev xr mr l * dev xr mr l) (wsum mr)

/-- The variances of 8192 consecutive rows of a block, added. -/
def blockSum (x0 x1 : (⟨2, ![8192, 64]⟩ : Shape).Idx → EReal) : EReal :=
  ∑ r : Fin 8192, rowVar (fun l => x0 (ix2 r l)) (fun l => x1 (ix2 r l))

/-- Pixel `l` of row `k` in the four-axis array: row `k` is area `k mod 16384` of batch `k / 16384`, pixel `l` is
    column `l mod 8` of patch row `l / 8`. (Total in `k` and `l`: the coordinates are reduced modulo the extents,
    which changes nothing for `k < 131072`, `l < 64`.) -/
def cell (k l : ℕ) : (⟨4, ![8, 16384, 8, 8]⟩ : Shape).Idx :=
  ix4 ⟨k / 16384 % 8, Nat.mod_lt _ (by decide)⟩ ⟨k % 16384, Nat.mod_lt _ (by decide)⟩
    ⟨l / 8 % 8, Nat.mod_lt _ (by decide)⟩ ⟨l % 8, Nat.mod_lt _ (by decide)⟩

/-- Row `k`'s variance, read off the two four-axis arrays. -/
def rowOf (a0 a1 : (⟨4, ![8, 16384, 8, 8]⟩ : Shape).Idx → EReal) (k : ℕ) : EReal :=
  rowVar (fun l => a0 (cell k l.val)) (fun l => a1 (cell k l.val))

/-- The result: the mean over all rows of the row variances. -/
def areaMean (a0 a1 : (⟨4, ![8, 16384, 8, 8]⟩ : Shape).Idx → EReal) : EReal :=
  Ideal.div (∑ k : Fin 131072, rowOf a0 a1 k.val) rows

/-! ## The running sum over the blocks of one half -/

/-- The running sum after block `n`: the blocks of `n`'s group of eight, from the group's first up to `n`. -/
def accum (B : ℕ → EReal) (n : ℕ) : EReal := ∑ s ∈ Finset.range (n % 8 + 1), B (8 * (n / 8) + s)

/-- At the first block of a group the running sum is that block. -/
theorem accum_first (B : ℕ → EReal) (n : ℕ) (h : n % 8 = 0) : accum B n = B n := by
  unfold accum
  rw [h, Finset.sum_range_one]
  congr 1; omega

/-- At a later block it is the previous running sum plus that block. -/
theorem accum_next (B : ℕ → EReal) (n : ℕ) (h : ¬ n % 8 = 0) : accum B n = accum B (n - 1) + B n := by
  unfold accum
  have e1 : n % 8 + 1 = ((n - 1) % 8 + 1) + 1 := by omega
  have e2 : (n - 1) / 8 = n / 8 := by omega
  rw [e1, Finset.sum_range_succ, e2]
  congr 2; omega

/-- After the last block of group `c` it is the sum of the group's eight blocks. -/
theorem accum_last (B : ℕ → EReal) (c : ℕ) : accum B (8 * c + 7) = ∑ i : Fin 8, B (8 * c + i.val) := by
  unfold accum
  have e1 : (8 * c + 7) % 8 + 1 = 8 := by omega
  have e2 : (8 * c + 7) / 8 = c := by omega
  rw [e1, e2, Finset.sum_range]

/-- The two groups' final running sums, added, are the sum over all rows, when block `t` is the sum of the rows
    `8192·t … 8192·t + 8191` (for each of the sixteen blocks). -/
theorem halves_eq_rows (R B : ℕ → EReal) (hB : ∀ t, t < 16 → B t = ∑ r : Fin 8192, R (8192 * t + r.val)) :
    ∑ c : Fin 2, accum B (8 * c.val + 7) = ∑ k : Fin 131072, R k.val := by
  have h1 : ∑ c : Fin 2, accum B (8 * c.val + 7) = ∑ c ∈ Finset.range 2, ∑ i : Fin 8, B (8 * c + i.val) := by
    rw [Finset.sum_range]; exact Finset.sum_congr rfl fun c _ => accum_last B c.val
  have h2 : ∑ t : Fin 16, B t.val = ∑ t ∈ Finset.range 16, ∑ r : Fin 8192, R (8192 * t + r.val) := by
    rw [Finset.sum_range]; exact Finset.sum_congr rfl fun t _ => hB t.val t.isLt
  rw [h1]
  exact ((Cert.Lib.sum_blocks 2 8 B).trans h2).trans (Cert.Lib.sum_blocks 16 8192 R)

/-- The sum over the (batch, area) pairs is the sum over the rows. -/
theorem pairs_eq_rows (R : ℕ → EReal) :
    ∑ j : (⟨2, ![8, 16384]⟩ : Shape).Idx, R (16384 * (j 0).val + (j 1).val) = ∑ k : Fin 131072, R k.val := by
  rw [sum_idx2]
  have h : ∑ a : Fin 8, ∑ b : Fin 16384, R (16384 * ((ix2 a b : (⟨2, ![8, 16384]⟩ : Shape).Idx) 0).val + ((ix2 a b : (⟨2, ![8, 16384]⟩ : Shape).Idx) 1).val)
      = ∑ a ∈ Finset.range 8, ∑ b : Fin 16384, R (16384 * a + b.val) := by
    rw [Finset.sum_range]
  rw [h]
  exact Cert.Lib.sum_blocks 8 16384 R

/-! ## A sum over the 64 pixels of one area of the four-axis array -/

/-- Dropping the two pixel axes of a four-axis index leaves (batch, area). -/
theorem drop_eq_iff (h : (⟨4, ![8, 16384, 8, 8]⟩ : Shape).ReducesTo [2, 3] ⟨2, ![8, 16384]⟩)
    (i : (⟨4, ![8, 16384, 8, 8]⟩ : Shape).Idx) (j : (⟨2, ![8, 16384]⟩ : Shape).Idx) :
    h.drop i = j ↔ (i 0).val = (j 0).val ∧ (i 1).val = (j 1).val := by
  have e0 : ((h.drop i) 0 : ℕ) = i 0 := h.drop_apply_val_of_eq i 0 0
  have e1 : ((h.drop i) 1 : ℕ) = i 1 := h.drop_apply_val_of_eq i 1 1
  constructor
  · rintro rfl; exact ⟨e0.symm, e1.symm⟩
  · rintro ⟨h0, h1⟩
    funext b
    apply Fin.ext
    match b with
    | ⟨0, _⟩ => exact e0.trans h0
    | ⟨1, _⟩ => exact e1.trans h1

/-- The four-axis indices that drop to (batch, area) `j` are the 64 pixels of row `16384·j₀ + j₁`: a sum over
    them is the sum over the row's pixels. -/
theorem sum_area (h : (⟨4, ![8, 16384, 8, 8]⟩ : Shape).ReducesTo [2, 3] ⟨2, ![8, 16384]⟩)
    (f : (⟨4, ![8, 16384, 8, 8]⟩ : Shape).Idx → EReal) (j : (⟨2, ![8, 16384]⟩ : Shape).Idx) :
    ∑ i ∈ Finset.univ.filter (fun i => h.drop i = j), f i
      = ∑ l : Fin 64, f (cell (16384 * (j 0).val + (j 1).val) l.val) := by
  have hj0 : (j 0).val < 8 := idx2_lt0 j
  have hj1 : (j 1).val < 16384 := idx2_lt1 j
  symm
  refine Finset.sum_bij (fun l _ => cell (16384 * (j 0).val + (j 1).val) l.val) ?_ ?_ ?_ (fun _ _ => rfl)
  · intro l _
    rw [Finset.mem_filter, drop_eq_iff]
    refine ⟨Finset.mem_univ _, ?_, ?_⟩
    · show (16384 * (j 0).val + (j 1).val) / 16384 % 8 = (j 0).val; omega
    · show (16384 * (j 0).val + (j 1).val) % 16384 = (j 1).val; omega
  · intro l _ l' _ hEq
    have h2 : l.val / 8 % 8 = l'.val / 8 % 8 := congrArg (fun i => (i 2).val) hEq
    have h3 : l.val % 8 = l'.val % 8 := congrArg (fun i => (i 3).val) hEq
    apply Fin.ext
    have := l.isLt; have := l'.isLt
    omega
  · intro i hi
    rw [Finset.mem_filter, drop_eq_iff] at hi
    obtain ⟨-, h0, h1⟩ := hi
    have hi2 : (i 2).val < 8 := (i 2).isLt
    have hi3 : (i 3).val < 8 := (i 3).isLt
    refine ⟨⟨(i 2).val * 8 + (i 3).val, by omega⟩, Finset.mem_univ _, ?_⟩
    funext a
    apply Fin.ext
    match a with
    | ⟨0, _⟩ => show (16384 * (j 0).val + (j 1).val) / 16384 % 8 = (i 0).val; omega
    | ⟨1, _⟩ => show (16384 * (j 0).val + (j 1).val) % 16384 = (i 1).val; omega
    | ⟨2, _⟩ => show ((i 2).val * 8 + (i 3).val) / 8 % 8 = (i 2).val; omega
    | ⟨3, _⟩ => show ((i 2).val * 8 + (i 3).val) % 8 = (i 3).val; omega

end Cert.AreaVar

end
-- ==== Proof.RefRead.lean ====
/-
  The reference program's result, read index by index: it is the mean over all rows of the row variances.

  The reference works on the four-axis arrays. Its weight at a pixel is the mask value softly rounded twice; its three
  sums over the two pixel axes are sums over the 64 pixels of a row; the row's mean is broadcast back over the row's
  pixels; and its last sum runs over the (batch, area) pairs, which are the rows.
-/
import proofs.«101651_j87960930222390_2_alg».proof.Proof.Gen.ReferenceIdeal.Read
import proofs.«101651_j87960930222390_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.AreaVar

variable (a0 a1 : (⟨S8x16384x8x8, .f32⟩ : BufTy).Contents (Elt Ideal))

/-- The mask softly rounded once, at any pixel. -/
theorem once_at (i : S8x16384x8x8.Idx) : val_main_v5 (F := Ideal) a1 i = soft (a1 i) := by
  simp only [val_main_v5_apply, val_main_v4_apply, val_main_v3_apply, val_main_cst_0_apply, val_main_v2_apply,
    val_main_v1_apply, val_main_v0_apply, val_main_cst_apply, Ideal.subf_def, Ideal.hostDivf_def,
    Ideal.hostUnary_sin_def, Ideal.mulf_def, Ideal.ofBits_def, soft]

/-- The weight at any pixel: the mask softly rounded twice. -/
theorem weight_at (i : S8x16384x8x8.Idx) : val_main_v11 (F := Ideal) a1 i = soft (soft (a1 i)) := by
  simp only [val_main_v11_apply, val_main_v10_apply, val_main_v9_apply, val_main_cst_2_apply, val_main_v8_apply,
    val_main_v7_apply, val_main_v6_apply, val_main_cst_1_apply, once_at, Ideal.subf_def, Ideal.hostDivf_def,
    Ideal.hostUnary_sin_def, Ideal.mulf_def, Ideal.ofBits_def]
  rfl

/-- The weighted image at any pixel. -/
theorem masked_at (i : S8x16384x8x8.Idx) : val_main_v12 (F := Ideal) a0 a1 i = a0 i * soft (soft (a1 i)) := by
  rw [val_main_v12_apply, weight_at]; rfl

/-- The row of (batch, area) `j`. -/
abbrev rowNo (j : S8x16384.Idx) : ℕ := 16384 * (j 0).val + (j 1).val

/-- A row's total weight plus ε. -/
theorem wsum_at (j : S8x16384.Idx) :
    val_main_v15 (F := Ideal) a1 j = wsum (fun l => a1 (cell (rowNo j) l.val)) := by
  rw [val_main_v15_apply, val_main_v14_apply, val_main_cst_4_apply]
  unfold val_main_v13
  simp only [Host.reduceAdd, Ideal.hostReduceAdd_def]
  unfold Ideal.hostReduceAdd
  rw [sum_area]
  simp only [weight_at, val_main_cst_3_apply, Ideal.ofBits_def, Ideal.ofBits_zero_f32, zero_add, Ideal.addf_def]
  rfl

/-- A row's weighted mean. -/
theorem wmean_at (j : S8x16384.Idx) :
    val_main_v17 (F := Ideal) a0 a1 j
      = wmean (fun l => a0 (cell (rowNo j) l.val)) (fun l => a1 (cell (rowNo j) l.val)) := by
  rw [val_main_v17_apply, wsum_at]
  unfold val_main_v16
  simp only [Host.reduceAdd, Ideal.hostReduceAdd_def]
  unfold Ideal.hostReduceAdd
  rw [sum_area]
  simp only [masked_at, val_main_cst_5_apply, Ideal.ofBits_def, Ideal.ofBits_zero_f32, zero_add, Ideal.hostDivf_def]
  rfl

/-- The (batch, area) pair a pixel of row `rowNo j` is broadcast from is `j`. -/
theorem back_to_row (j : S8x16384.Idx) (l : ℕ) : idx_main_v18 (idx_main_v19 (cell (rowNo j) l)) = j := by
  have hj0 : (j 0).val < 8 := idx2_lt0 j
  have hj1 : (j 1).val < 16384 := idx2_lt1 j
  funext a
  apply Fin.ext
  match a with
  | ⟨0, _⟩ => show (16384 * (j 0).val + (j 1).val) / 16384 % 8 = (j 0).val; omega
  | ⟨1, _⟩ => show (16384 * (j 0).val + (j 1).val) % 16384 = (j 1).val; omega

/-- The weighted deviation at a pixel of a row. -/
theorem dev_at (j : S8x16384.Idx) (l : Fin 64) :
    val_main_v21 (F := Ideal) a0 a1 (cell (rowNo j) l.val)
      = dev (fun l => a0 (cell (rowNo j) l.val)) (fun l => a1 (cell (rowNo j) l.val)) l := by
  rw [val_main_v21_apply, val_main_v20_apply, val_main_v19_apply, val_main_v18_apply, back_to_row, wmean_at,
    masked_at, weight_at]
  rfl

/-- A row's variance. -/
theorem rowVar_at (j : S8x16384.Idx) : val_main_v24 (F := Ideal) a0 a1 j = rowOf a0 a1 (rowNo j) := by
  rw [val_main_v24_apply, wsum_at]
  unfold val_main_v23
  simp only [Host.reduceAdd, Ideal.hostReduceAdd_def]
  unfold Ideal.hostReduceAdd
  rw [sum_area]
  simp only [val_main_v22_apply, dev_at, val_main_cst_6_apply, Ideal.ofBits_def, Ideal.ofBits_zero_f32, zero_add,
    Ideal.hostDivf_def, Ideal.mulf_def]
  rfl

/-- The reference's result is the mean of the row variances. -/
theorem result_eq : val_main_v26 (F := Ideal) a0 a1 = fun _ => areaMean a0 a1 := by
  funext i
  rw [val_main_v26_apply, val_main_v25_apply, val_main_cst_8_apply, val_main_cst_7_apply]
  simp only [rowVar_at, Ideal.ofBits_def, Ideal.ofBits_zero_f32, zero_add, Ideal.hostDivf_def]
  rw [pairs_eq_rows (rowOf a0 a1)]
  rfl

end Cert.ReferenceIdeal.RefValue

end
-- ==== Proof.KernelCases.lean ====
/-
  What each of the body's three cases leaves behind, as values.

  The body keeps a one-by-one running sum. At the first block of a half it stores zero into it and then stores
  zero-plus-the-block's-total; at a later block it stores the old running sum plus the block's total; at the last
  block of a half it also copies the new running sum into the output block. Each lemma reads the stores the run
  found back as the body's own arithmetic term of the two input blocks (and of the running sum it was handed).
-/
import proofs.«101651_j87960930222390_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First block of a half: the running sum is left at (zero + the block's total). -/
theorem first_scratch (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : Vec F S8192x64 .f32) :
    sout0_A_0 c i a2 h2 a3 h3 a4 h4 a5 h5 hc0 hc1 x0 x1 = k0_pay1 (k0_pay4 x0 x1 k0_pay3) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz2]
  simp only [View.readAt_eq_ld, h2.read_unread, h3.read_unread, h5.read_unread, View.ld_unit_zero (S := S8192x64) hz2,
    View.ld_unit_zero (S := S1x1) hz2, View.readCov_unit_zero (S := S1x1) _ hz2]

/-- A middle block: the running sum is left at (what it held + the block's total). -/
theorem middle_scratch (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : Vec F S8192x64 .f32) (xs : Vec F S1x1 .f32) :
    sout0_B_0 c i a2 h2 a3 h3 a4 h4 a5 h5 hc0 hc1 x0 x1 xs = k0_pay1 (k0_pay4 x0 x1 xs) := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero hz2]
  simp only [View.readAt_eq_ld, h2.read_unread, h3.read_unread, h5.read_unread, View.ld_unit_zero (S := S8192x64) hz2,
    View.ld_unit_zero (S := S1x1) hz2, View.readCov_unit_zero (S := S1x1) _ hz2]

/-- Last block of a half: the running sum likewise, -/
theorem last_scratch (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S8192x64 .f32) (xs : Vec F S1x1 .f32) :
    sout0_C_0 c i a2 h2 a3 h3 a4 h4 a5 h5 hc0 hc1 x0 x1 xs = k0_pay1 (k0_pay4 x0 x1 xs) := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S8192x64) hz2,
    View.ld_unit_zero (S := S1x1) hz2, View.readCov_unit_zero (S := S1x1) _ hz2]

/-- and the output block is left at that new running sum, viewed one-by-one-by-one. -/
theorem last_out (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : Vec F S8192x64 .f32) (xs : Vec F S1x1 .f32) :
    out0_C_2 c i a2 h2 a3 h3 a4 h4 a5 h5 hc0 hc1 x0 x1 xs = k0_pay2 (k0_pay1 (k0_pay4 x0 x1 xs)) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz3]
  simp only [View.readAt_eq_ld, h2.read_unread, h3.read_unread, h5.read_unread, View.ld_unit_zero (S := S8192x64) hz2,
    View.ld_unit_zero (S := S1x1) hz2, View.readCov_unit_zero (S := S1x1) _ hz2]

end Cert.KernelIdeal.Cases

end
-- ==== Proof.KernelBody.lean ====
/-
  The kernel body's arithmetic, read at an index.

  On a block of 8192 rows the body computes, row by row, the weight of each pixel (the mask softly rounded twice),
  the row's total weight plus ε, its weighted mean, each pixel's weighted deviation and the row's variance — the
  sums over a row being sums over its 64 lanes —, then adds the 8192 variances and adds that to the running sum it
  was handed. So what it leaves is the running sum plus the block's sum of row variances.
-/
import proofs.«101651_j87960930222390_2_alg».proof.Proof.Gen.KernelIdeal.Skeleton
import proofs.«101651_j87960930222390_2_alg».proof.Proof.Spec
import Idealize.ShloMosaic.Lib.Pipeline.Value
import Idealize.ShloMosaic.PureOps.Ideal.Laws

noncomputable section

open scoped BigOperators

namespace Cert.KernelIdeal.Body

open Cert.KernelIdeal Cert.KernelIdeal.Gen
open Idealize.ShloMosaic Idealize.ShloMosaic.ValueIdx Cert.AreaVar

/-! ## The body's intermediate vectors, named -/

section AnyValues

variable {F : FTy → Type} [FloatOps F]

/-- The weights of a block: the mask block softly rounded twice, pixel by pixel. -/
def weights (x1 : FVec F S8192x64 .f32) : FVec F S8192x64 .f32 :=
  have c : FVec F S8192x64 .f32 := broadcast S8192x64 (Scalar.ofBits .f32 0x40C90FDB#32)
  have once : FVec F S8192x64 .f32 := subf x1 (divf (sin (mulf c x1)) c)
  subf once (divf (sin (mulf c once)) c)

/-- The sum along the lanes of each row, kept as a column. -/
def laneSum (v : FVec F S8192x64 .f32) : FVec F S8192x1 .f32 :=
  shapeCast S8192x1 (multiReduction .add [1] S8192 v 0x00000000#32 reduces_S8192x64_S8192 (.inl rfl) rfl) shapeCasts_S8192_S8192x1

/-- Each row's total weight plus ε. -/
def totals (x1 : FVec F S8192x64 .f32) : FVec F S8192x1 .f32 :=
  addf (laneSum (weights x1)) (broadcast S8192x1 (Scalar.ofBits .f32 0x322BCC77#32))

/-- The weighted image. -/
def weighted (x0 x1 : FVec F S8192x64 .f32) : FVec F S8192x64 .f32 := mulf x0 (weights x1)

/-- Each row's weighted mean. -/
def means (x0 x1 : FVec F S8192x64 .f32) : FVec F S8192x1 .f32 := divf (laneSum (weighted x0 x1)) (totals x1)

/-- Each pixel's weighted deviation from its row's mean. -/
def deviations (x0 x1 : FVec F S8192x64 .f32) : FVec F S8192x64 .f32 :=
  mulf (subf (weighted x0 x1) (broadcastTo S8192x64 (means x0 x1) broadcasts_S8192x1_S8192x64)) (weights x1)

/-- Each row's variance. -/
def variances (x0 x1 : FVec F S8192x64 .f32) : FVec F S8192x1 .f32 :=
  divf (laneSum (mulf (deviations x0 x1) (deviations x0 x1))) (totals x1)

/-- The block's sum of row variances, as the one-by-one vector the body adds to the running sum. -/
def blockTotal (x0 x1 : FVec F S8192x64 .f32) : FVec F S1x1 .f32 :=
  shapeCast S1x1 (multiReduction .add [0] S1 (variances x0 x1) 0x00000000#32 reduces_S8192x1_S1 (.inl rfl) rfl) shapeCasts_S1_S1x1

/-- The body's last value is the running sum it loaded plus the block's total (the printed operations, grouped). -/
theorem pay4_eq (x0 x1 : Vec F S8192x64 .f32) (xs : Vec F S1x1 .f32) :
    k0_pay4 x0 x1 xs
      = addf xs (blockTotal (shapeCast S8192x64 x0 shapeCasts_S8192x64_S8192x64) (shapeCast S8192x64 x1 shapeCasts_S8192x64_S8192x64)) :=
  rfl

end AnyValues

/-! ## Read at an index, on the extended reals -/

/-- A pixel's weight. -/
theorem weights_at (x1 : FVec Ideal S8192x64 .f32) (i : S8192x64.Idx) : weights x1 i = soft (soft (x1 i)) := rfl

/-- A lane sum kept as a column, at row `r`: the sum over the row's 64 lanes. -/
theorem laneSum_read (v : FVec Ideal S8192x64 .f32) (h : S8192x64.Reduces [1] S8192) (hφ : FKind.Formats .f32)
    (hacc : (0x00000000#32 : BitVec 32) = FKind.add.neutral .f32 hφ) (hc : S8192.ShapeCasts S8192x1) (r : Fin 8192) :
    shapeCast S8192x1 (multiReduction .add [1] S8192 v 0x00000000#32 h hφ hacc) hc (ix2 r (0 : Fin 1))
      = ∑ l : Fin 64, v (ix2 r l) :=
  (shapeCast_apply _ hc (ix2 r (0 : Fin 1)) (ix1 r) (by
      rw [Shape.rowMajor_val_one, Shape.rowMajor_val_two]; show r.val = r.val * 1 + 0; omega)).trans
    ((Ideal.multiReduction_add_single v 0x00000000#32 h hφ hacc (ix1 r)).trans
      (Finset.sum_congr rfl fun l _ => congrArg v (funext fun a => Fin.ext (by
        match a with
        | ⟨0, _⟩ => rfl
        | ⟨1, _⟩ => rfl))))

theorem laneSum_at (v : FVec Ideal S8192x64 .f32) (r : Fin 8192) :
    laneSum v (ix2 r (0 : Fin 1)) = ∑ l : Fin 64, v (ix2 r l) :=
  laneSum_read v _ _ _ _ r

/-- A row's total weight plus ε. -/
theorem totals_at (x1 : FVec Ideal S8192x64 .f32) (r : Fin 8192) :
    totals x1 (ix2 r (0 : Fin 1)) = wsum (fun l => x1 (ix2 r l)) := by
  show laneSum (weights x1) (ix2 r (0 : Fin 1)) + _ = _
  rw [laneSum_at]
  rfl

/-- A row's weighted mean. -/
theorem means_at (x0 x1 : FVec Ideal S8192x64 .f32) (r : Fin 8192) :
    means x0 x1 (ix2 r (0 : Fin 1)) = wmean (fun l => x0 (ix2 r l)) (fun l => x1 (ix2 r l)) := by
  show Ideal.div (laneSum (weighted x0 x1) (ix2 r (0 : Fin 1))) (totals x1 (ix2 r (0 : Fin 1))) = _
  rw [laneSum_at, totals_at]
  rfl

/-- The column of means broadcast along the lanes reads the row's mean. -/
theorem spread_at (v : FVec Ideal S8192x1 .f32) (r : Fin 8192) (l : Fin 64) :
    broadcastTo S8192x64 v broadcasts_S8192x1_S8192x64 (ix2 r l) = v (ix2 r (0 : Fin 1)) :=
  broadcastTo_apply v broadcasts_S8192x1_S8192x64 (ix2 r l) (ix2 r (0 : Fin 1)) (fun a => by
    match a with
    | ⟨0, _⟩ => show r.val = if (8192 : ℕ) = 1 then 0 else r.val; rw [if_neg (by decide)]
    | ⟨1, _⟩ => show 0 = if (1 : ℕ) = 1 then 0 else l.val; rw [if_pos rfl])

/-- A pixel's weighted deviation. -/
theorem deviations_at (x0 x1 : FVec Ideal S8192x64 .f32) (r : Fin 8192) (l : Fin 64) :
    deviations x0 x1 (ix2 r l) = dev (fun l => x0 (ix2 r l)) (fun l => x1 (ix2 r l)) l := by
  show (weighted x0 x1 (ix2 r l) - broadcastTo S8192x64 (means x0 x1) broadcasts_S8192x1_S8192x64 (ix2 r l)) * weights x1 (ix2 r l) = _
  rw [spread_at, means_at]
  rfl

/-- A row's variance. -/
theorem variances_at (x0 x1 : FVec Ideal S8192x64 .f32) (r : Fin 8192) :
    variances x0 x1 (ix2 r (0 : Fin 1)) = rowVar (fun l => x0 (ix2 r l)) (fun l => x1 (ix2 r l)) := by
  show Ideal.div (laneSum (mulf (deviations x0 x1) (deviations x0 x1)) (ix2 r (0 : Fin 1))) (totals x1 (ix2 r (0 : Fin 1))) = _
  rw [laneSum_at, totals_at]
  show Ideal.div (∑ l : Fin 64, deviations x0 x1 (ix2 r l) * deviations x0 x1 (ix2 r l)) _ = _
  simp only [deviations_at]
  rfl

/-- The sum down a column, kept as a one-by-one vector: the sum over the 8192 rows. -/
theorem rowSum_read (v : FVec Ideal S8192x1 .f32) (h : S8192x1.Reduces [0] S1) (hφ : FKind.Formats .f32)
    (hacc : (0x00000000#32 : BitVec 32) = FKind.add.neutral .f32 hφ) (hc : S1.ShapeCasts S1x1) (y : S1x1.Idx) :
    shapeCast S1x1 (multiReduction .add [0] S1 v 0x00000000#32 h hφ hacc) hc y
      = ∑ r : Fin 8192, v (ix2 r (0 : Fin 1)) :=
  (shapeCast_apply _ hc y (ix1 (0 : Fin 1)) (by
      have h0 : (y 0).val < 1 := (y 0).isLt
      have h1 : (y 1).val < 1 := (y 1).isLt
      rw [Shape.rowMajor_val_one, Shape.rowMajor_val_two]; show 0 = (y 0).val * 1 + (y 1).val; omega)).trans
    ((Ideal.multiReduction_add_single v 0x00000000#32 h hφ hacc (ix1 (0 : Fin 1))).trans
      (Finset.sum_congr rfl fun r _ => congrArg v (funext fun a => Fin.ext (by
        match a with
        | ⟨0, _⟩ => rfl
        | ⟨1, _⟩ => rfl))))

/-- The block's total is the sum of its rows' variances. -/
theorem blockTotal_at (x0 x1 : FVec Ideal S8192x64 .f32) (y : S1x1.Idx) : blockTotal x0 x1 y = blockSum x0 x1 := by
  unfold blockSum
  exact (rowSum_read (variances x0 x1) reduces_S8192x1_S1 (.inl rfl) rfl shapeCasts_S1_S1x1 y).trans
    (Finset.sum_congr rfl fun r _ => variances_at x0 x1 r)

/-- What the body leaves: the running sum it was handed plus the block's sum of row variances. -/
theorem pay4_at (x0 x1 : FVec Ideal S8192x64 .f32) (xs : FVec Ideal S1x1 .f32) (y : S1x1.Idx) :
    k0_pay4 (F := Ideal) x0 x1 xs y = xs y + blockSum x0 x1 := by
  rw [pay4_eq, shapeCast_self, shapeCast_self]
  exact congrArg (xs y + ·) (blockTotal_at x0 x1 y)

end Cert.KernelIdeal.Body

end
-- ==== Proof.KernelAcc.lean ====
/-
  The running sum across the grid, and the output array after the run.

  Point `t` of the grid works on block `t`: rows `8192·t … 8192·t + 8191`. The one-by-one running sum the body
  carries holds, after point `t`, the sum of the blocks of `t`'s group of eight from the group's first block up to
  `t` (by induction on the point: the first block of a group starts it afresh, every later one adds to it). The
  output has one entry per group, written at the group's last point with the running sum of that point.
-/
import proofs.«101651_j87960930222390_2_alg».proof.Proof.Gen.KernelIdeal.Frame
import proofs.«101651_j87960930222390_2_alg».proof.Proof.KernelCases
import proofs.«101651_j87960930222390_2_alg».proof.Proof.KernelBody
import Idealize.ShloMosaic.Lib.Pipeline.Value
import Idealize.ShloMosaic.Lib.StableHlo.Run

set_option maxRecDepth 16384

noncomputable section

open scoped BigOperators
open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Cases Cert.KernelIdeal.Body
open Idealize.ShloMosaic.ValueIdx Cert.AreaVar

/-! ## What each case leaves, on the extended reals -/

/-- First block of a group: the running sum becomes the block's sum of row variances (zero plus it). -/
theorem first_val (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : cond0_0 i) (hc1 : ¬cond0_1 i)
    (x0 x1 : FVec Ideal S8192x64 .f32) :
    sout0_A_0 (F := Ideal) c i a2 h2 a3 h3 a4 h4 a5 h5 hc0 hc1 x0 x1 = fun _ => blockSum x0 x1 := by
  rw [first_scratch]
  funext y
  exact ((congrFun (shapeCast_self _ _) y).trans (pay4_at x0 x1 k0_pay3 y)).trans (by
    show Ideal.ofBits .f32 0x00000000#32 + blockSum x0 x1 = blockSum x0 x1
    rw [Ideal.ofBits_zero_f32, zero_add])

/-- A middle block: the running sum grows by the block's sum. -/
theorem middle_val (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : ¬cond0_1 i)
    (x0 x1 : FVec Ideal S8192x64 .f32) (xs : FVec Ideal S1x1 .f32) :
    sout0_B_0 (F := Ideal) c i a2 h2 a3 h3 a4 h4 a5 h5 hc0 hc1 x0 x1 xs = fun y => xs y + blockSum x0 x1 := by
  rw [middle_scratch]
  funext y
  exact (congrFun (shapeCast_self _ _) y).trans (pay4_at x0 x1 xs y)

/-- Last block of a group: the running sum grows by the block's sum, -/
theorem last_val (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : FVec Ideal S8192x64 .f32) (xs : FVec Ideal S1x1 .f32) :
    sout0_C_0 (F := Ideal) c i a2 h2 a3 h3 a4 h4 a5 h5 hc0 hc1 x0 x1 xs = fun y => xs y + blockSum x0 x1 := by
  rw [last_scratch]
  funext y
  exact (congrFun (shapeCast_self _ _) y).trans (pay4_at x0 x1 xs y)

/-- and the output block receives that new running sum. -/
theorem out_val (c : Dev nD) (i : grid0.Coords) (a2 : Memref sig .tc .vmem S8192x64 .f32) (h2 : a2.IsWhole)
    (a3 : Memref sig .tc .vmem S8192x64 .f32) (h3 : a3.IsWhole) (a4 : Memref sig .tc .vmem S1x1x1 .f32) (h4 : a4.IsWhole)
    (a5 : Memref sig .tc .vmem S1x1 .f32) (h5 : a5.IsWhole) (hc0 : ¬cond0_0 i) (hc1 : cond0_1 i)
    (x0 x1 : FVec Ideal S8192x64 .f32) (xs : FVec Ideal S1x1 .f32) :
    out0_C_2 (F := Ideal) c i a2 h2 a3 h3 a4 h4 a5 h5 hc0 hc1 x0 x1 xs
      = fun _ => xs (ix2 (0 : Fin 1) (0 : Fin 1)) + blockSum x0 x1 := by
  rw [last_out]
  funext y
  refine (shapeCast_apply (k0_pay1 (k0_pay4 (F := Ideal) x0 x1 xs)) shapeCasts_S1x1_S1x1x1 y (ix2 (0 : Fin 1) (0 : Fin 1)) (by
    have h0 : (y 0).val < 1 := (y 0).isLt
    have h1 : (y 1).val < 1 := (y 1).isLt
    have h2 : (y 2).val < 1 := (y 2).isLt
    rw [Shape.rowMajor_val_two, Shape.rowMajor_val_three]
    show (0 * 1 + 0 : ℕ) = ((y 0).val * 1 + (y 1).val) * 1 + (y 2).val
    omega)).trans ?_
  exact (congrFun (shapeCast_self _ _) _).trans (pay4_at x0 x1 xs _)

/-! ## The running sum after each point -/

variable (m : (ℓ : Loc nD τ sig) → Buf (Elt Ideal) ℓ)

/-- Block `n`'s sum of row variances, of the two input blocks point `n` is handed (zero past the grid). -/
def blockOf (c : Dev nD) (n : ℕ) : EReal :=
  if h : n < cfg0.N then blockSum (iblk m c 0 ⟨n, h⟩) (iblk m c 1 ⟨n, h⟩) else 0

theorem blockOf_at (c : Dev nD) (t : Fin cfg0.N) :
    blockOf m c t.val = blockSum (iblk m c 0 t) (iblk m c 1 t) := by
  unfold blockOf
  rw [dif_pos t.isLt]

/-- One step of the induction: if the point before left the running sum of its blocks, so does this point. -/
theorem scratch_step (c : Dev nD) (t : Fin cfg0.N)
    (ih : ∀ hlt : t.val - 1 < cfg0.N, 0 < t.val →
      (outsAt0 m c (t.val - 1) hlt).2 = fun _ => accum (blockOf m c) (t.val - 1)) :
    (outsAt0 m c t.val t.isLt).2 = fun _ => accum (blockOf m c) t.val := by
  by_cases h0 : t.val % 8 = 0
  · have h1 : ¬ t.val % 8 = 7 := by omega
    rw [outsAt0_A m c t h0 h1]
    dsimp only
    refine (first_val c (grid0.coords t) (ms0_0 t) (hs0_0 t) (ms0_1 t) (hs0_1 t) (ms0_2 t) (hs0_2 t) scM0_0 (Memref.isWhole_whole _) _ _
      (iblk m c 0 t) (iblk m c 1 t)).trans ?_
    funext _
    rw [accum_first _ _ h0, blockOf_at]
  · have hpos : 0 < t.val := by omega
    by_cases h1 : t.val % 8 = 7
    · rw [outsAt0_C m c t h0 h1]
      dsimp only
      refine (last_val c (grid0.coords t) (ms0_0 t) (hs0_0 t) (ms0_1 t) (hs0_1 t) (ms0_2 t) (hs0_2 t) scM0_0 (Memref.isWhole_whole _) _ _
      (iblk m c 0 t) (iblk m c 1 t)
        (outsAt0 m c (t.val - 1) (Nat.lt_of_le_of_lt (Nat.sub_le _ _) t.isLt)).2).trans ?_
      rw [ih _ hpos]
      funext _
      show accum (blockOf m c) (t.val - 1) + blockSum (iblk m c 0 t) (iblk m c 1 t) = accum (blockOf m c) t.val
      rw [accum_next _ _ h0, blockOf_at]
    · rw [outsAt0_B m c t h0 h1]
      dsimp only
      refine (middle_val c (grid0.coords t) (ms0_0 t) (hs0_0 t) (ms0_1 t) (hs0_1 t) (ms0_2 t) (hs0_2 t) scM0_0 (Memref.isWhole_whole _) _ _
      (iblk m c 0 t) (iblk m c 1 t)
        (outsAt0 m c (t.val - 1) (Nat.lt_of_le_of_lt (Nat.sub_le _ _) t.isLt)).2).trans ?_
      rw [ih _ hpos]
      funext _
      show accum (blockOf m c) (t.val - 1) + blockSum (iblk m c 0 t) (iblk m c 1 t) = accum (blockOf m c) t.val
      rw [accum_next _ _ h0, blockOf_at]

/-- After every point the carried one-by-one vector holds the running sum of the point's group. -/
theorem scratch_eq (c : Dev nD) : ∀ (n : ℕ) (h : n < cfg0.N), (outsAt0 m c n h).2 = fun _ => accum (blockOf m c) n
  | 0, h => scratch_step m c ⟨0, h⟩ (fun _ hpos => absurd hpos (Nat.lt_irrefl 0))
  | n + 1, h => scratch_step m c ⟨n + 1, h⟩ (fun hlt _ => scratch_eq c n hlt)

/-- At the last point of a group the output block holds the group's whole sum. -/
theorem out_eq (c : Dev nD) (t : Fin cfg0.N) (h7 : t.val % 8 = 7) :
    (outsAt0 m c t.val t.isLt).1 = fun _ => accum (blockOf m c) t.val := by
  have h0 : ¬ t.val % 8 = 0 := by omega
  rw [outsAt0_C m c t h0 h7]
  dsimp only
  refine (out_val c (grid0.coords t) (ms0_0 t) (hs0_0 t) (ms0_1 t) (hs0_1 t) (ms0_2 t) (hs0_2 t) scM0_0 (Memref.isWhole_whole _) _ _
      (iblk m c 0 t) (iblk m c 1 t)
    (outsAt0 m c (t.val - 1) (Nat.lt_of_le_of_lt (Nat.sub_le _ _) t.isLt)).2).trans ?_
  rw [scratch_eq m c (t.val - 1) _]
  funext _
  show accum (blockOf m c) (t.val - 1) + blockSum (iblk m c 0 t) (iblk m c 1 t) = accum (blockOf m c) t.val
  rw [accum_next _ _ h0, blockOf_at]

/-! ## The output array after the run -/

/-- The output array: entry `g` is the sum of the eight blocks of group `g`. -/
def groups (c : Dev nD) : S2x1x1.Idx → EReal := fun i => accum (blockOf m c) (8 * (i 0).val + 7)

/-- Where the windows' blocks sit, decided over the grid: point `t` reads block `t` of each input, and writes
    entry `t / 8` of the output. -/
theorem where_blocks : ∀ t : Fin cfg0.N,
    win0_2.index t (0 : Fin 3) = t.val / 8 ∧ win0_2.index t (1 : Fin 3) = 0 ∧ win0_2.index t (2 : Fin 3) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What a writing point writes back is its entry of `groups`. -/
theorem flushed_eq (c : Dev nD) (t : Fin cfg0.N) (hf : (cfg0.win 2).flush t = true) :
    (dats m 0 c).flushed 2 t = ((cfg0.win 2).blk t).view.read (Elt Ideal) (groups m c) := by
  have h7 : t.val % 8 = 7 := (flush0_2 t).mp hf
  obtain ⟨e0, -, -, -, -, -, -⟩ := where_blocks t
  show (cfg0.win 2).cut (grid0.coords t) ((dats m 0 c).after 2 t) = _
  rw [after0_2, out_eq m c t h7]
  funext y
  have hy : (y 0).val < 1 := (y 0).isLt
  show accum (blockOf m c) t.val = accum (blockOf m c) (8 * (win0_2.index t (0 : Fin 3) * 1 + 1 * (y 0).val) + 7)
  congr 1
  rw [e0]
  omega

/-- Every entry of the output is written by the last point of its group. -/
theorem covered (c : Dev nD) (i : S2x1x1.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 16 := N_0
  have hlt : 8 * (i 0).val + 7 < cfg0.N := by omega
  refine ⟨⟨8 * (i 0).val + 7, hlt⟩, (flush0_2 _).mpr (by show (8 * (i 0).val + 7) % 8 = 7; omega), ?_⟩
  obtain ⟨e0, e1, e2, -, -, -, -⟩ := where_blocks ⟨8 * (i 0).val + 7, hlt⟩
  have e0' : win0_2.index ⟨8 * (i 0).val + 7, hlt⟩ (0 : Fin 3) = (8 * (i 0).val + 7) / 8 := e0
  show i ∈ ((View.whole main_v2).slice (win0_2.rect ⟨8 * (i 0).val + 7, hlt⟩)).set
  rw [View.set_slice_whole, Rect.mem_set_unit]
  intro a
  match a with
  | ⟨0, _⟩ =>
    show win0_2.index ⟨8 * (i 0).val + 7, hlt⟩ (0 : Fin 3) * 1 ≤ (i 0).val
      ∧ (i 0).val < win0_2.index ⟨8 * (i 0).val + 7, hlt⟩ (0 : Fin 3) * 1 + 1
    rw [e0']; omega
  | ⟨1, _⟩ =>
    show win0_2.index ⟨8 * (i 0).val + 7, hlt⟩ (1 : Fin 3) * 1 ≤ (i 1).val
      ∧ (i 1).val < win0_2.index ⟨8 * (i 0).val + 7, hlt⟩ (1 : Fin 3) * 1 + 1
    rw [e1]; omega
  | ⟨2, _⟩ =>
    show win0_2.index ⟨8 * (i 0).val + 7, hlt⟩ (2 : Fin 3) * 1 ≤ (i 2).val
      ∧ (i 2).val < win0_2.index ⟨8 * (i 0).val + 7, hlt⟩ (2 : Fin 3) * 1 + 1
    rw [e2]; omega

/-- So the output array ends holding the two groups' sums. -/
theorem out_array (c : Dev nD) : (dats m 0 c).arrAt 2 cfg0.N = groups m c :=
  (dats m 0 c).arrAt_eq_of_cover 2 (groups m c) (flushed_eq m c) (covered c)

/-! ## The blocks are rows of the four-axis arrays -/

/-- The host reshapes the image to (row, lane) before the region. -/
theorem img_entry (c : Dev nD) :
    (V m c main_v0 : S131072x64.Idx → EReal)
      = shapeCast S131072x64 (m ((c : Thread nD τ).loc main_arg0)) shapeCasts_S8x16384x8x8_S131072x64 := by
  show StableHlo.after hostOps0 (fun b => m (c, b)) (Proc.devRef .tc main_v0) = _
  after_results
  rfl

/-- The host reshapes the mask to (row, lane) before the region. -/
theorem mask_entry (c : Dev nD) :
    (V m c main_v1 : S131072x64.Idx → EReal)
      = shapeCast S131072x64 (m ((c : Thread nD τ).loc main_arg1)) shapeCasts_S8x16384x8x8_S131072x64 := by
  show StableHlo.after hostOps0 (fun b => m (c, b)) (Proc.devRef .tc main_v1) = _
  after_results
  rfl

/-- The (row, lane) array reads the four-axis array at the same row-major position. -/
theorem reshaped_at (a : S8x16384x8x8.Idx → EReal) (k : Fin 131072) (l : Fin 64) :
    shapeCast S131072x64 a shapeCasts_S8x16384x8x8_S131072x64 (ix2 k l) = a (cell k.val l.val) :=
  shapeCast_apply a shapeCasts_S8x16384x8x8_S131072x64 (ix2 k l) (cell k.val l.val) (by
    have hk := k.isLt
    have hl := l.isLt
    rw [Shape.rowMajor_val_four, Shape.rowMajor_val_two]
    show ((k.val / 16384 % 8 * 16384 + k.val % 16384) * 8 + l.val / 8 % 8) * 8 + l.val % 8 = k.val * 64 + l.val
    omega)

/-- Point `t`'s image block at (r, l) is pixel `l` of row `8192·t + r`. -/
theorem img_block_at (c : Dev nD) (t : Fin cfg0.N) (r : Fin 8192) (l : Fin 64) :
    iblk m c 0 t (ix2 r l) = m ((c : Thread nD τ).loc main_arg0) (cell (8192 * t.val + r.val) l.val) := by
  have hN : cfg0.N = 16 := N_0
  have ht : t.val < 16 := lt_of_lt_of_eq t.isLt hN
  obtain ⟨-, -, -, e0, e1, -, -⟩ := where_blocks t
  unfold iblk
  rw [View.read_apply]
  show V m c main_v0 (((cfg0.win 0).blk t).view.emb (ix2 r l)) = _
  rw [img_entry]
  have hk : 8192 * t.val + r.val < 131072 := by have := r.isLt; omega
  refine (congrArg _ (?_ : ((cfg0.win 0).blk t).view.emb (ix2 r l) = ix2 (⟨8192 * t.val + r.val, hk⟩ : Fin 131072) l)).trans
    (reshaped_at _ ⟨8192 * t.val + r.val, hk⟩ l)
  funext a
  apply Fin.ext
  match a with
  | ⟨0, _⟩ => show win0_0.index t (0 : Fin 2) * 8192 + 1 * r.val = 8192 * t.val + r.val; rw [e0]; omega
  | ⟨1, _⟩ => show win0_0.index t (1 : Fin 2) * 64 + 1 * l.val = l.val; rw [e1]; omega

/-- Point `t`'s mask block at (r, l) likewise. -/
theorem mask_block_at (c : Dev nD) (t : Fin cfg0.N) (r : Fin 8192) (l : Fin 64) :
    iblk m c 1 t (ix2 r l) = m ((c : Thread nD τ).loc main_arg1) (cell (8192 * t.val + r.val) l.val) := by
  have hN : cfg0.N = 16 := N_0
  have ht : t.val < 16 := lt_of_lt_of_eq t.isLt hN
  obtain ⟨-, -, -, -, -, e0, e1⟩ := where_blocks t
  unfold iblk
  rw [View.read_apply]
  show V m c main_v1 (((cfg0.win 1).blk t).view.emb (ix2 r l)) = _
  rw [mask_entry]
  have hk : 8192 * t.val + r.val < 131072 := by have := r.isLt; omega
  refine (congrArg _ (?_ : ((cfg0.win 1).blk t).view.emb (ix2 r l) = ix2 (⟨8192 * t.val + r.val, hk⟩ : Fin 131072) l)).trans
    (reshaped_at _ ⟨8192 * t.val + r.val, hk⟩ l)
  funext a
  apply Fin.ext
  match a with
  | ⟨0, _⟩ => show win0_1.index t (0 : Fin 2) * 8192 + 1 * r.val = 8192 * t.val + r.val; rw [e0]; omega
  | ⟨1, _⟩ => show win0_1.index t (1 : Fin 2) * 64 + 1 * l.val = l.val; rw [e1]; omega

/-- So block `t`'s sum is the sum of the variances of rows `8192·t … 8192·t + 8191`. -/
theorem blockOf_rows (c : Dev nD) (t : ℕ) (ht : t < 16) :
    blockOf m c t = ∑ r : Fin 8192,
      rowOf (m ((c : Thread nD τ).loc main_arg0)) (m ((c : Thread nD τ).loc main_arg1)) (8192 * t + r.val) := by
  have hN : cfg0.N = 16 := N_0
  have hlt : t < cfg0.N := by omega
  rw [blockOf_at m c ⟨t, hlt⟩]
  unfold blockSum rowOf
  refine Finset.sum_congr rfl fun r _ => ?_
  congr 1
  · funext l; exact img_block_at m c ⟨t, hlt⟩ r l
  · funext l; exact mask_block_at m c ⟨t, hlt⟩ r l

end Cert.KernelIdeal.Acc

end
-- ==== Proof.KernelRun.lean ====
/-
  The kernel's result: after the region the host adds the output's two entries and divides by the number of rows.

  The two entries are the sums of the blocks of the two halves, so their sum is the sum of all sixteen blocks, which is
  the sum of the variances of all 131072 rows; divided by 131072 it is the mean of the row variances.
-/
import proofs.«101651_j87960930222390_2_alg».proof.Proof.KernelAcc

set_option maxRecDepth 16384

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Acc
open Idealize.ShloMosaic.ValueIdx Cert.AreaVar

/-- A sum over the output's entries (one per group, the other two axes of extent one) is a sum over the groups. -/
theorem sum_entries (f : ℕ → EReal) : ∑ i : S2x1x1.Idx, f (i 0).val = ∑ g : Fin 2, f g.val := by
  refine Fintype.sum_equiv
    ⟨fun i => (i 0 : Fin 2), fun g => ix3 g (0 : Fin 1) (0 : Fin 1), fun i => ?_, fun g => rfl⟩ _ _ (fun i => rfl)
  funext a
  apply Fin.ext
  have h1 : (i 1).val < 1 := (i 1).isLt
  have h2 : (i 2).val < 1 := (i 2).isLt
  match a with
  | ⟨0, _⟩ => rfl
  | ⟨1, _⟩ => show 0 = (i 1).val; omega
  | ⟨2, _⟩ => show 0 = (i 2).val; omega

variable (m : (ℓ : Loc nD τ sig) → Buf (Elt Ideal) ℓ) (ρ : Dev nD → PrngReg)

/-- What the host operations after the region leave in the result: the mean of the row variances. -/
theorem tail_value (c : Dev nD) :
    Pipeline.afterTail₀ cfgs (dats m) 0 (V0 m) [hostOps1] c main_v4
      = fun _ => areaMean (m ((c : Thread nD τ).loc main_arg0)) (m ((c : Thread nD τ).loc main_arg1)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2)
      = groups m c :=
    (Pipeline.withArrays_arr spec0 launch0.win.arr_inj c _ _ 2).trans (out_array m c)
  rw [e]
  funext i
  have hsum : Host.reduceAdd (F := Ideal) (groups m c) (constant S_ .f32 0x00000000#32) reducesTo_S2x1x1_S_d0_1_2 h_S_ i
      = (constant (F := Ideal) S_ .f32 0x00000000#32) (Shape.Idx.first h_S_) + ∑ j : S2x1x1.Idx, groups m c j := by
    simp only [Host.reduceAdd, Ideal.hostReduceAdd_def]
    exact Ideal.hostReduceAdd_total reducesTo_S2x1x1_S_d0_1_2 (fun b => b.elim0) (groups m c) _ i
  show Ideal.div (Host.reduceAdd (F := Ideal) (groups m c) (constant S_ .f32 0x00000000#32) reducesTo_S2x1x1_S_d0_1_2 h_S_ i)
    (Ideal.ofBits .f32 0x48000000#32) = _
  rw [hsum]
  show Ideal.div (Ideal.ofBits .f32 0x00000000#32 + ∑ j : S2x1x1.Idx, accum (blockOf m c) (8 * (j 0).val + 7))
    (Ideal.ofBits .f32 0x48000000#32) = _
  rw [Ideal.ofBits_zero_f32, zero_add, sum_entries (fun g => accum (blockOf m c) (8 * g + 7)),
    halves_eq_rows _ _ (blockOf_rows m c)]
  rfl

/-- The kernel's run, read: every weakly fair execution ends with the result at the mean of the row variances of the
    two argument arrays, and the arguments unchanged. -/
theorem run : θ_run defs (onTc (τ := τ) (main (F := Ideal))) ⟨m, fun _ => 0, ρ⟩ fun r => ∀ c : Dev nD,
      r.2.mem ((c : Thread nD τ).loc main_v4)
        = (fun _ => areaMean (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Result

end
-- ==== Proof.lean ====
/-
  The kernel and the reference compute the same number: the mean, over the 131072 areas of the two inputs, of each
  area's weighted variance.

  An area is a row of 64 pixels. A pixel's weight is its mask value softly rounded twice, s(s(mask)) with
  s(x) = x − sin(2π·x)/2π; the row's weighted mean is (Σ img·w)/(Σ w + ε), its variance (Σ ((img·w − mean)·w)²)/(Σ w + ε).

  Both programs compute each row's variance by the same operations on the same binary32 words (2π, ε, 131072), so over
  the extended reals the two rows' terms are identical: no law of arithmetic is needed there, and the precondition
  (finite inputs) is never opened. They differ only in how the 131072 variances are added: the reference adds them all
  and divides by 131072; the kernel adds them in sixteen blocks of 8192 rows, the eight blocks of each half into a
  running sum, then the two halves, then divides by 131072. Addition of extended reals is commutative and associative,
  so both groupings are the one sum.

  The modules: Spec (the mathematics, and the regrouping of the sum), RefRead (the reference's result is that mean),
  KernelBody (the body's arithmetic at an index), KernelCases (what each of the body's three control cases stores),
  KernelAcc (the running sum after each grid point; the output array; the blocks as rows), KernelRun (the host's
  last two operations; the kernel's run).
-/
import proofs.«101651_j87960930222390_2_alg».proof.Defs
import proofs.«101651_j87960930222390_2_alg».proof.Proof.Gen.Kernel
import proofs.«101651_j87960930222390_2_alg».proof.Proof.Gen.Kernel.Skeleton
import proofs.«101651_j87960930222390_2_alg».proof.Proof.Gen.Kernel.Launch
import proofs.«101651_j87960930222390_2_alg».proof.Proof.Gen.Kernel.Points
import proofs.«101651_j87960930222390_2_alg».proof.Proof.Gen.Kernel.Frame
import proofs.«101651_j87960930222390_2_alg».proof.Proof.Gen.KernelIdeal
import proofs.«101651_j87960930222390_2_alg».proof.Proof.Gen.KernelIdeal.Skeleton
import proofs.«101651_j87960930222390_2_alg».proof.Proof.Gen.KernelIdeal.Launch
import proofs.«101651_j87960930222390_2_alg».proof.Proof.Gen.KernelIdeal.Points
import proofs.«101651_j87960930222390_2_alg».proof.Proof.Gen.KernelIdeal.Frame
import proofs.«101651_j87960930222390_2_alg».proof.Proof.Gen.ReferenceIdeal
import proofs.«101651_j87960930222390_2_alg».proof.Proof.Gen.ReferenceIdeal.Run
import proofs.«101651_j87960930222390_2_alg».proof.Proof.Gen.ReferenceIdeal.Read
import proofs.«101651_j87960930222390_2_alg».proof.Proof.Gen.Pre_finite_inputs
import proofs.«101651_j87960930222390_2_alg».proof.Proof.RefRead
import proofs.«101651_j87960930222390_2_alg».proof.Proof.KernelRun
import Idealize.ShloMosaic.Adequacy
import Idealize.ShloMosaic.Init

noncomputable section

namespace Cert.Proof

open Idealize.ShloMosaic Idealize.SL.Sem

/-- The reference runs and leaves its arguments unchanged: its run, with the result dropped. -/
theorem frame_reference : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Over the extended reals both programs end with the mean of the row variances of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.AreaVar.areaMean
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v26_eq, Cert.ReferenceIdeal.RefValue.result_eq, (hagree c).1,
    (hagree c).2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
